-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x20 : Shape := ⟨2, ![1048576, 20]⟩
abbrev S20x20 : Shape := ⟨2, ![20, 20]⟩
abbrev S20 : Shape := ⟨1, ![20]⟩
abbrev S_ : Shape := ⟨0, ![]⟩

class Facts : Prop where
  bcast_S_S1048576x20 : S_.BroadcastsInDim S1048576x20 (![] : Fin 0 → Fin S1048576x20.rank)
  reducesTo_S1048576x20_S_d0_1 : S1048576x20.ReducesTo [0, 1] S_
  h_S_ : 0 < S_.numel
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  main_v18

def fn {F : FTy → Type} [FloatOps F] (main_arg0 : FVec F S1048576x20 .f32) (main_arg1 : FVec F S20x20 .f32) (main_arg2 : FVec F S20 .f32) (main_arg3 : FVec F S20x20 .f32) : IVec S_ 1 :=
  let main_v0 : FVec F S1048576x20 .f32 := Host.absf main_arg0
  let main_cst : FVec F S_ .f32 := constant S_ .f32 0x7F800000#32
  let main_v1 : FVec F S1048576x20 .f32 := broadcastInDim S1048576x20 ![] bcast_S_S1048576x20 main_cst
  let main_v2 : IVec S1048576x20 1 := cmpf .olt main_v0 main_v1
  let main_c : IVec S_ 1 := constantI S_ 1 1#1
  let main_v3 : IVec S_ 1 := (fun x v => Host.reduce IntOp.andi x v reducesTo_S1048576x20_S_d0_1 h_S_) main_v2 main_c
  let main_v4 : FVec F S20x20 .f32 := Host.absf main_arg1
  let main_cst_0 : FVec F S_ .f32 := constant S_ .f32 0x7F800000#32
  let main_v5 : FVec F S20x20 .f32 := broadcastInDim S20x20 ![] bcast_S_S20x20 main_cst_0
  let main_v6 : IVec S20x20 1 := cmpf .olt main_v4 main_v5
  let main_c_1 : IVec S_ 1 := constantI S_ 1 1#1
  let main_v7 : IVec S_ 1 := (fun x v => Host.reduce IntOp.andi x v reducesTo_S20x20_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x20 .f32 := Host.absf main_arg3
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_v13 main_v16
-- ==== Kernel.lean ====
abbrev S1048576x20 : Shape := ⟨2, ![1048576, 20]⟩
abbrev S20x20 : Shape := ⟨2, ![20, 20]⟩
abbrev S20 : Shape := ⟨1, ![20]⟩
abbrev S1x20 : Shape := ⟨2, ![1, 20]⟩
abbrev S_ : Shape := ⟨0, ![]⟩
abbrev S20x1 : Shape := ⟨2, ![20, 1]⟩
abbrev S2x1x1 : Shape := ⟨3, ![2, 1, 1]⟩
abbrev S16384x20 : Shape := ⟨2, ![16384, 20]⟩
abbrev S1x1x1 : Shape := ⟨3, ![1, 1, 1]⟩
abbrev S20x16384 : Shape := ⟨2, ![20, 16384]⟩
abbrev S1 : Shape := ⟨1, ![1]⟩
abbrev S1x1 : Shape := ⟨2, ![1, 1]⟩

abbrev nBuf : Space → Nat
  | .hbm => 64
  | .vmem => 10
  | .smem => 0
  | _ => 0

abbrev bufTy : (tb : Table) → Fin (tcTables nBuf tb) → BufTy
  | .hbm, ⟨0, _⟩ => ⟨S1048576x20, .f32⟩
  | .hbm, ⟨1, _⟩ => ⟨S20x20, .f32⟩
  | .hbm, ⟨2, _⟩ => ⟨S20, .f32⟩
  | .hbm, ⟨3, _⟩ => ⟨S20x20, .f32⟩
  | .hbm, ⟨4, _⟩ => ⟨S20x20, .f32⟩
  | .hbm, ⟨5, _⟩ => ⟨S20x20, .f32⟩
  | .hbm, ⟨6, _⟩ => ⟨S1x20, .f32⟩
  | .hbm, ⟨7, _⟩ => ⟨S1x20, .f32⟩
  | .hbm, ⟨8, _⟩ => ⟨S_, .f32⟩
  | .hbm, ⟨9, _⟩ => ⟨S1x20, .f32⟩
  | .hbm, ⟨10, _⟩ => ⟨S1x20, .f32⟩
  | .hbm, ⟨11, _⟩ => ⟨S20x20, .f32⟩
  | .hbm, ⟨12, _⟩ => ⟨S20x1, .f32⟩
  | .hbm, ⟨13, _⟩ => ⟨S20x1, .f32⟩
  | .hbm, ⟨14, _⟩ => ⟨S2x1x1, .f32⟩
  | .hbm, ⟨15, _⟩ => ⟨S2x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .i1⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S16384x20, .f32⟩
  | .local _ .vmem, ⟨1, _⟩ => ⟨S16384x20, .f32⟩
  | .local _ .vmem, ⟨2, _⟩ => ⟨S20x20, .f32⟩
  | .local _ .vmem, ⟨3, _⟩ => ⟨S20x1, .f32⟩
  | .local _ .vmem, ⟨4, _⟩ => ⟨S20x20, .f32⟩
  | .local _ .vmem, ⟨5, _⟩ => ⟨S20x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S1048576x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_c_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S20x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S20x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S20x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S20x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S20x20_S20x20_1_0 : S20x20.Transposes [1, 0] S20x20
  shapeCasts_S20_S1x20 : S20.ShapeCasts S1x20
  bcast_S_S1x20 : S_.BroadcastsInDim S1x20 (![] : Fin 0 → Fin S1x20.rank)
  shapeCasts_S1x20_S20x1 : S1x20.ShapeCasts S20x1
  shapeCasts_S20_S20x1 : S20.ShapeCasts S20x1
  inb_S1x1x1_S1x1x1_0_0_0 : ∀ a, (![0, 0, 0] : Fin 3 → Nat) a + S1x1x1.size a ≤ S1x1x1.size a
  h_S1x1x1 : 0 < S1x1x1.numel
  inb_S16384x20_S16384x20_0_0 : ∀ a, (![0, 0] : Fin 2 → Nat) a + S16384x20.size a ≤ S16384x20.size a
  h_S16384x20 : 0 < S16384x20.numel
  transposes_S16384x20_p1_0_S20x16384 : S16384x20.Transposes [1, 0] S20x16384
  inb_S20x20_S20x20_0_0 : ∀ a, (![0, 0] : Fin 2 → Nat) a + S20x20.size a ≤ S20x20.size a
  h_S20x20 : 0 < S20x20.numel
  shapeCasts_S20x20_S20x20 : S20x20.ShapeCasts S20x20
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x16384 : S20x1.Broadcasts S20x16384
  reduces_S20x16384_S20 : S20x16384.Reduces [1] S20
  reduces_S20x1_S1 : S20x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  bcast_S_S_ : S_.BroadcastsInDim S_ (![] : Fin 0 → Fin S_.rank)
  dot_S20x20_S20x20_S20x20_1_0_0_1_n_n_wf : DotDims.WF S20x20 S20x20 S20x20 [1] [0] [0] [1] [] []
  dot_S1x20_S20x20_S1x20_1_0_0_1_n_n_wf : DotDims.WF S1x20 S20x20 S1x20 [1] [0] [0] [1] [] []
  dot_S20x20_S20x16384_S20x16384_1_0_0_1_n_n_wf : DotDims.WF S20x20 S20x16384 S20x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x20.size a ≤ S1048576x20.size a
  hwx0_0 : ∀ i : grid0.Coords, EltTy.bits .f32 = 32 ∨ (Rect.block (s := S1048576x20) S16384x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x20.size a ≤ S20x20.size a
  hwx0_1 : ∀ i : grid0.Coords, EltTy.bits .f32 = 32 ∨ (Rect.block (s := S20x20) S20x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x1.size a ≤ S20x1.size a
  hwx0_2 : ∀ i : grid0.Coords, EltTy.bits .f32 = 32 ∨ (Rect.block (s := S20x1) S20x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x20.size a ≤ S20x20.size a
  hwx0_3 : ∀ i : grid0.Coords, EltTy.bits .f32 = 32 ∨ (Rect.block (s := S20x20) S20x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x1.size a ≤ S20x1.size a
  hwx0_4 : ∀ i : grid0.Coords, EltTy.bits .f32 = 32 ∨ (Rect.block (s := S20x1) S20x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S20x20_S20x20_S20x20_1_0_0_1_n_n : DotDims S20x20 S20x20 S20x20 where
  lhsContracting := [1]
  rhsContracting := [0]
  lhsNonContracting := [0]
  rhsNonContracting := [1]
  lhsBatch := []
  rhsBatch := []
  wf := dot_S20x20_S20x20_S20x20_1_0_0_1_n_n_wf
def dot_S1x20_S20x20_S1x20_1_0_0_1_n_n : DotDims S1x20 S20x20 S1x20 where
  lhsContracting := [1]
  rhsContracting := [0]
  lhsNonContracting := [0]
  rhsNonContracting := [1]
  lhsBatch := []
  rhsBatch := []
  wf := dot_S1x20_S20x20_S1x20_1_0_0_1_n_n_wf
def dot_S20x20_S20x16384_S20x16384_1_0_0_1_n_n : DotDims S20x20 S20x16384 S20x16384 where
  lhsContracting := [1]
  rhsContracting := [0]
  lhsNonContracting := [0]
  rhsNonContracting := [1]
  lhsBatch := []
  rhsBatch := []
  wf := dot_S20x20_S20x16384_S20x16384_1_0_0_1_n_n_wf

abbrev win0_0 : Pipeline.Window sig grid0 :=
  Pipeline.Window.ofSpec (Memref.whole main_arg0) S16384x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S20x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S20x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S20x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S20x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x20 : Shape := ⟨2, ![1048576, 20]⟩
abbrev S20x20 : Shape := ⟨2, ![20, 20]⟩
abbrev S20 : Shape := ⟨1, ![20]⟩
abbrev S1x20 : Shape := ⟨2, ![1, 20]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S1048576x20, .f32⟩
  | .hbm, ⟨1, _⟩ => ⟨S20x20, .f32⟩
  | .hbm, ⟨2, _⟩ => ⟨S20, .f32⟩
  | .hbm, ⟨3, _⟩ => ⟨S20x20, .f32⟩
  | .hbm, ⟨4, _⟩ => ⟨S20x20, .f32⟩
  | .hbm, ⟨5, _⟩ => ⟨S1048576x20, .f32⟩
  | .hbm, ⟨6, _⟩ => ⟨S1x20, .f32⟩
  | .hbm, ⟨7, _⟩ => ⟨S1048576x20, .f32⟩
  | .hbm, ⟨8, _⟩ => ⟨S1048576x20, .f32⟩
  | .hbm, ⟨9, _⟩ => ⟨S1048576x20, .f32⟩
  | .hbm, ⟨10, _⟩ => ⟨S_, .f32⟩
  | .hbm, ⟨11, _⟩ => ⟨S1048576x20, .f32⟩
  | .hbm, ⟨12, _⟩ => ⟨S1048576x20, .f32⟩
  | .hbm, ⟨13, _⟩ => ⟨S_, .f32⟩
  | .hbm, ⟨14, _⟩ => ⟨S1048576x20, .f32⟩
  | .hbm, ⟨15, _⟩ => ⟨S1048576x20, .f32⟩
  | .hbm, ⟨16, _⟩ => ⟨S20x20, .f32⟩
  | .hbm, ⟨17, _⟩ => ⟨S1048576x20, .f32⟩
  | .hbm, ⟨18, _⟩ => ⟨S1x20, .f32⟩
  | .hbm, ⟨19, _⟩ => ⟨S1048576x20, .f32⟩
  | .hbm, ⟨20, _⟩ => ⟨S1048576x20, .f32⟩
  | .hbm, ⟨21, _⟩ => ⟨S1048576x20, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1048576x20, .f32⟩
  | .hbm, ⟨68, _⟩ => ⟨S1048576x20, .f32⟩
  | .hbm, ⟨69, _⟩ => ⟨S_, .f32⟩
  | .hbm, ⟨70, _⟩ => ⟨S_, .f32⟩
  | _, _ => ⟨S1048576x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  transposes_S20x20_S20x20_1_0 : S20x20.Transposes [1, 0] S20x20
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  bcast_S_S1048576x20 : S_.BroadcastsInDim S1048576x20 (![] : Fin 0 → Fin S1048576x20.rank)
  reducesTo_S1048576x20_S_d0_1 : S1048576x20.ReducesTo [0, 1] S_
  h_S_ : 0 < S_.numel
  bcast_S_S_ : S_.BroadcastsInDim S_ (![] : Fin 0 → Fin S_.rank)
  dot_S1048576x20_S20x20_S1048576x20_1_0_0_1_n_n_wf : DotDims.WF S1048576x20 S20x20 S1048576x20 [1] [0] [0] [1] [] []

variable [Facts₀]

def dot_S1048576x20_S20x20_S1048576x20_1_0_0_1_n_n : DotDims S1048576x20 S20x20 S1048576x20 where
  lhsContracting := [1]
  rhsContracting := [0]
  lhsNonContracting := [0]
  rhsNonContracting := [1]
  lhsBatch := []
  rhsBatch := []
  wf := dot_S1048576x20_S20x20_S1048576x20_1_0_0_1_n_n_wf

class Facts : Prop extends Facts₀ where

variable [Facts]
-- ==== Proof.Finite.lean ====
/-
  What the precondition gives: every entry of the four arguments is a real number.

  The precondition compares the absolute value of every entry with +∞ and takes the conjunction of all comparisons.
  An extended real whose absolute value is below +∞ is neither +∞ nor −∞, so it is a real number.
-/
import proofs.«162774_j34875134444033_2_alg».proof.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic

namespace Cert.Pre_finite_inputs.Finite

open Cert.Pre_finite_inputs

instance : Subsingleton S_.Idx := ⟨fun a b => funext fun d => d.elim0⟩

/-- An extended real whose absolute value compares below the word of +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    by_contra hn
    simp [Ideal.cmp, hn] at h
  have h1 : x < ⊤ := lt_of_le_of_lt (le_max_left _ _) hlt
  have h2 : -x < ⊤ := lt_of_le_of_lt (le_max_right _ _) hlt
  refine ⟨x.toReal, (EReal.coe_toReal h1.ne ?_).symm⟩
  intro hb
  rw [hb, EReal.neg_bot] at h2
  exact lt_irrefl _ h2

variable [Facts]

/-- Under the precondition all four arguments hold real numbers. -/
theorem real_of_pre (a0 : FVec Ideal S1048576x20 .f32) (a1 : FVec Ideal S20x20 .f32) (a2 : FVec Ideal S20 .f32) (a3 : FVec Ideal S20x20 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Pre_finite_inputs.Finite

end
-- ==== Proof.KernelCases.lean ====
/-
  What one grid point leaves in the two accumulators.

  The body adds, to each of its two one-word accumulators, this point's contribution: to the first the sum of the
  block's entries of h₃, to the second the sum of their absolute values.  At the first point of each half of the grid
  (inner coordinate 0) it first stores zero and reads it back; at every other point it reads what the point before
  left.  So a first point leaves "zero plus the contribution" and a later point "the previous contents plus the
  contribution", for each accumulator: the four statements below, one per case and accumulator, for any float values.
-/
import proofs.«162774_j34875134444033_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Accum

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point, first accumulator: the previous contents plus the block's sum. -/
theorem out_B_5 (c : Dev nD) (i : grid0.Coords) (a2 : Memref sig .tc .vmem S16384x20 .f32) (h2 : a2.IsWhole) (a3 : Memref sig .tc .vmem S20x20 .f32) (h3 : a3.IsWhole) (a4 : Memref sig .tc .vmem S20x1 .f32) (h4 : a4.IsWhole) (a5 : Memref sig .tc .vmem S20x20 .f32) (h5 : a5.IsWhole) (a6 : Memref sig .tc .vmem S20x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S16384x20 .f32) (x1 : Vec F S20x20 .f32) (x2 : Vec F S20x1 .f32) (x3 : Vec F S20x20 .f32) (x4 : Vec F S20x1 .f32) (xo5 xo6 : Vec F S1x1x1 .f32) :
    out0_B_5 c i a2 h2 a3 h3 a4 h4 a5 h5 a6 h6 a7 h7 a8 h8 hc x0 x1 x2 x3 x4 xo5 xo6 = k0_pay6 x0 x1 x2 x3 x4 xo5 := by
  unfold out0_B_5
  rw [View.read_writes_eq_canon _ _ _ (cover0_B_5 c i a2 h2 a3 h3 a4 h4 a5 h5 a6 h6 a7 h7 a8 h8 hc x0 x1 x2 x3 x4 xo5 xo6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S16384x20) hz2, View.ld_unit_zero (S := S20x20) hz2, View.ld_unit_zero (S := S20x1) hz2, View.ld_unit_zero (S := S1x1x1) hz3]

/-- A later point, second accumulator: the previous contents plus the block's sum of absolute values. -/
theorem out_B_6 (c : Dev nD) (i : grid0.Coords) (a2 : Memref sig .tc .vmem S16384x20 .f32) (h2 : a2.IsWhole) (a3 : Memref sig .tc .vmem S20x20 .f32) (h3 : a3.IsWhole) (a4 : Memref sig .tc .vmem S20x1 .f32) (h4 : a4.IsWhole) (a5 : Memref sig .tc .vmem S20x20 .f32) (h5 : a5.IsWhole) (a6 : Memref sig .tc .vmem S20x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S16384x20 .f32) (x1 : Vec F S20x20 .f32) (x2 : Vec F S20x1 .f32) (x3 : Vec F S20x20 .f32) (x4 : Vec F S20x1 .f32) (xo5 xo6 : Vec F S1x1x1 .f32) :
    out0_B_6 c i a2 h2 a3 h3 a4 h4 a5 h5 a6 h6 a7 h7 a8 h8 hc x0 x1 x2 x3 x4 xo5 xo6 = k0_pay1 (k0_pay5 x0 x1 x2 x3 x4) xo6 := by
  unfold out0_B_6
  rw [View.read_writes_eq_canon _ _ _ (cover0_B_6 c i a2 h2 a3 h3 a4 h4 a5 h5 a6 h6 a7 h7 a8 h8 hc x0 x1 x2 x3 x4 xo5 xo6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S16384x20) hz2, View.ld_unit_zero (S := S20x20) hz2, View.ld_unit_zero (S := S20x1) hz2, View.ld_unit_zero (S := S1x1x1) hz3]

/-- A first point, first accumulator: zero plus the block's sum. -/
theorem out_A_5 (c : Dev nD) (i : grid0.Coords) (a2 : Memref sig .tc .vmem S16384x20 .f32) (h2 : a2.IsWhole) (a3 : Memref sig .tc .vmem S20x20 .f32) (h3 : a3.IsWhole) (a4 : Memref sig .tc .vmem S20x1 .f32) (h4 : a4.IsWhole) (a5 : Memref sig .tc .vmem S20x20 .f32) (h5 : a5.IsWhole) (a6 : Memref sig .tc .vmem S20x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S16384x20 .f32) (x1 : Vec F S20x20 .f32) (x2 : Vec F S20x1 .f32) (x3 : Vec F S20x20 .f32) (x4 : Vec F S20x1 .f32) :
    out0_A_5 c i a2 h2 a3 h3 a4 h4 a5 h5 a6 h6 a7 h7 a8 h8 hc x0 x1 x2 x3 x4 = k0_pay6 x0 x1 x2 x3 x4 k0_pay2 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread,
    View.ld_unit_zero (S := S16384x20) hz2, View.ld_unit_zero (S := S20x20) hz2, View.ld_unit_zero (S := S20x1) hz2, View.ld_unit_zero (S := S1x1x1) hz3]

/-- A first point, second accumulator: zero plus the block's sum of absolute values. -/
theorem out_A_6 (c : Dev nD) (i : grid0.Coords) (a2 : Memref sig .tc .vmem S16384x20 .f32) (h2 : a2.IsWhole) (a3 : Memref sig .tc .vmem S20x20 .f32) (h3 : a3.IsWhole) (a4 : Memref sig .tc .vmem S20x1 .f32) (h4 : a4.IsWhole) (a5 : Memref sig .tc .vmem S20x20 .f32) (h5 : a5.IsWhole) (a6 : Memref sig .tc .vmem S20x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S16384x20 .f32) (x1 : Vec F S20x20 .f32) (x2 : Vec F S20x1 .f32) (x3 : Vec F S20x20 .f32) (x4 : Vec F S20x1 .f32) :
    out0_A_6 c i a2 h2 a3 h3 a4 h4 a5 h5 a6 h6 a7 h7 a8 h8 hc x0 x1 x2 x3 x4 = k0_pay1 (k0_pay5 x0 x1 x2 x3 x4) k0_pay3 := by
  unfold out0_A_6
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread,
    View.ld_unit_zero (S := S16384x20) hz2, View.ld_unit_zero (S := S20x20) hz2, View.ld_unit_zero (S := S20x1) hz2, View.ld_unit_zero (S := S1x1x1) hz3]

end Cert.KernelIdeal.Accum

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibColumnSum.lean ====
/-
  GENERAL LEMMAS: a column `[a, 1]` summed along its first axis into `[1]` — what `sum(x, axis=0, keepdims=True)`
  of a column becomes in a vector program before the sum is cast back to `[1, 1]` — read at an index given by
  coordinates, and a sum over the indices of a one-axis array written over the coordinate.
  • `multiReduction_add_axis0_col_apply`: the sum of an `[a, 1]` column from the zero word, at its one index, is the sum
    of the column's entries;
  • `sum_idx1`: the sum over every index of an `[n]` array is the sum over `Fin n` of the array at `ix1`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The sum along the first axis of an `[a, 1]` column of extended reals, accumulated from the zero word: at its one
    index it is the sum of the column's entries. -/
theorem multiReduction_add_axis0_col_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src ?_
  funext c
  match c with
  | ⟨0, _⟩ => exact Fin.ext rfl
  | ⟨1, _⟩ => exact Fin.ext (by show u.val = 0; omega)

/-- The sum over every index of a one-axis array is the sum over its coordinate. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

end Idealize.ShloMosaic.ValueIdx

end
-- ==== Proof.KernelPoint.lean ====
/-
  One grid point's contribution, on the extended reals.

  The body transposes the point's block of rows so that features run along the first axis, and computes, for the
  16384 rows of the block at once,
    h₃ᵀ = W · relu (Mᵀ · xᵀ + c) + b      (Mᵀ, c, W, b its four small operands, c and b as columns).
  Entry (g, l) of that array is the expression of `entry_apply`.  The point then adds to its first accumulator the
  sum of all 20 · 16384 entries — the rows' sums first, then the sum of those — and to the second the sum of their
  absolute values: `addSum_apply`, `addAbs_apply`.  A zero block is the number zero at its one index.
-/
import proofs.«162774_j34875134444033_2_alg».proof.Proof.Gen.KernelIdeal.Skeleton
import proofs.«162774_j34875134444033_2_alg».proof.Proof.LibPlainDot
import proofs.«162774_j34875134444033_2_alg».proof.Proof.LibKeepdims
import proofs.«162774_j34875134444033_2_alg».proof.Proof.LibColumnSum
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx

namespace Cert.KernelIdeal.Point

open Cert.KernelIdeal Cert.KernelIdeal.Gen

/-- Entry (g, l) of the block's h₃ᵀ, from the five blocks the body loads. -/
def entry (x0 : Vec Ideal S16384x20 .f32) (x1 : Vec Ideal S20x20 .f32) (x2 : Vec Ideal S20x1 .f32) (x3 : Vec Ideal S20x20 .f32) (x4 : Vec Ideal S20x1 .f32) (g : Fin 20) (l : Fin 16384) : EReal :=
  (∑ f : Fin 20, x3 (ix2 g f) * max ((∑ k : Fin 20, x1 (ix2 f k) * x0 (ix2 l k)) + x2 (ix2 f (0 : Fin 1))) (Ideal.ofBits .f32 0x00000000#32))
    + x4 (ix2 g (0 : Fin 1))

/-- The sum of the block's entries. -/
def blockSum (x0 : Vec Ideal S16384x20 .f32) (x1 : Vec Ideal S20x20 .f32) (x2 : Vec Ideal S20x1 .f32) (x3 : Vec Ideal S20x20 .f32) (x4 : Vec Ideal S20x1 .f32) : EReal := ∑ g : Fin 20, ∑ l : Fin 16384, entry x0 x1 x2 x3 x4 g l

/-- The sum of the absolute values of the block's entries. -/
def blockAbs (x0 : Vec Ideal S16384x20 .f32) (x1 : Vec Ideal S20x20 .f32) (x2 : Vec Ideal S20x1 .f32) (x3 : Vec Ideal S20x20 .f32) (x4 : Vec Ideal S20x1 .f32) : EReal :=
  ∑ g : Fin 20, ∑ l : Fin 16384, max (entry x0 x1 x2 x3 x4 g l) (-(entry x0 x1 x2 x3 x4 g l))

theorem entry_apply (x0 : Vec Ideal S16384x20 .f32) (x1 : Vec Ideal S20x20 .f32) (x2 : Vec Ideal S20x1 .f32) (x3 : Vec Ideal S20x20 .f32) (x4 : Vec Ideal S20x1 .f32) (g : Fin 20) (l : Fin 16384) :
    k0_pay4 (F := Ideal) x0 x1 x2 x3 x4 (ix2 g l) = entry x0 x1 x2 x3 x4 g l := by
  unfold k0_pay4 entry
  dsimp only
  refine (addf_apply _ _ _).trans ?_
  refine congrArg₂ (· + ·) ?_ ?_
  · refine (PlainDot.matmul_zero_apply _ rfl _ _ _ _).trans ?_
    refine Finset.sum_congr rfl fun f _ => ?_
    refine congrArg₂ (· * ·) rfl ?_
    refine (maximumf_apply _ _ _).trans ?_
    refine congrArg₂ max ?_ rfl
    refine (addf_apply _ _ _).trans ?_
    refine congrArg₂ (· + ·) ?_ ?_
    · refine (PlainDot.matmul_zero_apply _ rfl _ _ _ _).trans ?_
      refine Finset.sum_congr rfl fun k _ => ?_
      refine congrArg₂ (· * ·) ?_ ?_
      · exact congrFun (shapeCast_self x1 _) _
      · exact transpose_ix2_apply x0 _ k l
    · refine (broadcastTo_a1_ab_apply _ _ f l).trans ?_
      exact congrFun (shapeCast_self x2 _) _
  · refine (broadcastTo_a1_ab_apply _ _ g l).trans ?_
    exact congrFun (shapeCast_self x4 _) _

/-- The rows' sums, then the sum of those: all entries of a [20, 16384] array, read at the one index of [1, 1]. -/
theorem total_apply (v : FVec Ideal S20x16384 .f32) (j : S1x1.Idx) :
    shapeCast S1x1 (multiReduction .add [0] S1 (shapeCast S20x1 (multiReduction .add [1] S20 v 0x00000000#32 reduces_S20x16384_S20 (.inl rfl) rfl)
      shapeCasts_S20_S20x1) 0x00000000#32 reduces_S20x1_S1 (.inl rfl) rfl) shapeCasts_S1_S1x1 j
      = ∑ g : Fin 20, ∑ l : Fin 16384, v (ix2 g l) := by
  obtain ⟨u, w, rfl⟩ : ∃ (u w : Fin 1), j = ix2 u w := ⟨j 0, j 1, eq_ix2 j⟩
  refine (shapeCast_a_a1_apply _ _ u w).trans ?_
  refine (multiReduction_add_axis0_col_apply _ _ _ _ u).trans ?_
  refine Finset.sum_congr rfl fun g _ => ?_
  refine (shapeCast_a_a1_apply _ _ g 0).trans ?_
  exact multiReduction_add_axis1_apply _ _ _ _ g

/-- The first accumulator's update: what it held plus the block's sum. -/
theorem addSum_apply (x0 : Vec Ideal S16384x20 .f32) (x1 : Vec Ideal S20x20 .f32) (x2 : Vec Ideal S20x1 .f32) (x3 : Vec Ideal S20x20 .f32) (x4 : Vec Ideal S20x1 .f32) (acc : Vec Ideal S1x1x1 .f32) (j : S1x1x1.Idx) :
    k0_pay6 (F := Ideal) x0 x1 x2 x3 x4 acc j = acc j + blockSum x0 x1 x2 x3 x4 := by
  unfold k0_pay6 blockSum
  dsimp only
  refine (addf_apply _ _ _).trans ?_
  refine congrArg₂ (· + ·) (congrFun (shapeCast_self acc _) _) ?_
  refine (shapeCast_addUnit_apply ![1, 1] _ _ j).trans ?_
  refine (total_apply _ _).trans ?_
  exact Finset.sum_congr rfl fun g _ => Finset.sum_congr rfl fun l _ => entry_apply x0 x1 x2 x3 x4 g l

/-- The second accumulator's update: what it held plus the block's sum of absolute values. -/
theorem addAbs_apply (x0 : Vec Ideal S16384x20 .f32) (x1 : Vec Ideal S20x20 .f32) (x2 : Vec Ideal S20x1 .f32) (x3 : Vec Ideal S20x20 .f32) (x4 : Vec Ideal S20x1 .f32) (acc : Vec Ideal S1x1x1 .f32) (j : S1x1x1.Idx) :
    k0_pay1 (F := Ideal) (k0_pay5 x0 x1 x2 x3 x4) acc j = acc j + blockAbs x0 x1 x2 x3 x4 := by
  unfold k0_pay1 k0_pay5 blockAbs
  dsimp only
  refine (addf_apply _ _ _).trans ?_
  refine congrArg₂ (· + ·) (congrFun (shapeCast_self acc _) _) ?_
  refine (shapeCast_addUnit_apply ![1, 1] _ _ j).trans ?_
  refine (total_apply _ _).trans ?_
  refine Finset.sum_congr rfl fun g _ => Finset.sum_congr rfl fun l _ => ?_
  show max (k0_pay4 (F := Ideal) x0 x1 x2 x3 x4 (ix2 g l)) (-(k0_pay4 (F := Ideal) x0 x1 x2 x3 x4 (ix2 g l))) = _
  rw [entry_apply]

/-- The zero block the first point stores in the first accumulator. -/
theorem zero5_apply (j : S1x1x1.Idx) : k0_pay2 (F := Ideal) j = 0 := Ideal.ofBits_zero_f32

/-- The zero block the first point stores in the second accumulator. -/
theorem zero6_apply (j : S1x1x1.Idx) : k0_pay3 (F := Ideal) j = 0 := Ideal.ofBits_zero_f32

end Cert.KernelIdeal.Point

end
-- ==== Proof.KernelAccum.lean ====
/-
  The two accumulators after every grid point.

  The grid has 64 points, in two halves of 32; point `n` handles rows 16384·n … 16384·n + 16383.  Within a half the
  two accumulators are never written back, so after point `n` each holds the sum of the contributions of the points
  of `n`'s half up to `n`: the first accumulator the blocks' sums, the second the blocks' sums of absolute values.
  By induction on the point: the first point of a half leaves zero plus its contribution, every other point what
  the point before left plus its own.
-/
import proofs.«162774_j34875134444033_2_alg».proof.Proof.KernelCases
import proofs.«162774_j34875134444033_2_alg».proof.Proof.KernelPoint
import Mathlib.Algebra.BigOperators.Intervals

noncomputable section

open Idealize.ShloMosaic Idealize.ShloMosaic.TcCoe Idealize.SL.Sem

namespace Cert.KernelIdeal.Accum

open Cert.KernelIdeal Cert.KernelIdeal.Gen

variable (m : (ℓ : Loc nD τ sig) → Buf (Elt Ideal) ℓ)

/-- Point `n`'s contribution to the first accumulator: the sum of the entries of h₃ over its block of rows. -/
def ptSum (c : Dev nD) (n : ℕ) : EReal :=
  if h : n < cfg0.N then
    Point.blockSum (iblk m c 0 ⟨n, h⟩) (iblk m c 1 ⟨n, h⟩) (iblk m c 2 ⟨n, h⟩) (iblk m c 3 ⟨n, h⟩) (iblk m c 4 ⟨n, h⟩)
  else 0

/-- Point `n`'s contribution to the second accumulator: the sum of the absolute values of those entries. -/
def ptAbs (c : Dev nD) (n : ℕ) : EReal :=
  if h : n < cfg0.N then
    Point.blockAbs (iblk m c 0 ⟨n, h⟩) (iblk m c 1 ⟨n, h⟩) (iblk m c 2 ⟨n, h⟩) (iblk m c 3 ⟨n, h⟩) (iblk m c 4 ⟨n, h⟩)
  else 0

/-- The first point of a half leaves its own contribution in each accumulator. -/
theorem firstPoint (c : Dev nD) (t : Fin cfg0.N) (h0 : t.val % 32 = 0) (j : S1x1x1.Idx) :
    (outsAt0 m c t.val t.isLt).1 j = ptSum m c t.val ∧ (outsAt0 m c t.val t.isLt).2 j = ptAbs m c t.val := by
  rw [outsAt0_A m c t h0]
  constructor
  · refine (congrFun (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) j).trans ?_
    refine (Point.addSum_apply (iblk m c 0 t) (iblk m c 1 t) (iblk m c 2 t) (iblk m c 3 t) (iblk m c 4 t) (k0_pay2 (F := Ideal)) j).trans ?_
    rw [Point.zero5_apply, zero_add]
    unfold ptSum
    rw [dif_pos t.isLt]
  · refine (congrFun (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) j).trans ?_
    refine (Point.addAbs_apply (iblk m c 0 t) (iblk m c 1 t) (iblk m c 2 t) (iblk m c 3 t) (iblk m c 4 t) (k0_pay3 (F := Ideal)) j).trans ?_
    rw [Point.zero6_apply, zero_add]
    unfold ptAbs
    rw [dif_pos t.isLt]

/-- Every other point adds its contribution to what the point before left. -/
theorem laterPoint (c : Dev nD) (t : Fin cfg0.N) (h0 : ¬t.val % 32 = 0) (j : S1x1x1.Idx) :
    (outsAt0 m c t.val t.isLt).1 j
        = (outsAt0 m c (t.val - 1) (Nat.lt_of_le_of_lt (Nat.sub_le _ _) t.isLt)).1 j + ptSum m c t.val
      ∧ (outsAt0 m c t.val t.isLt).2 j
        = (outsAt0 m c (t.val - 1) (Nat.lt_of_le_of_lt (Nat.sub_le _ _) t.isLt)).2 j + ptAbs m c t.val := by
  rw [outsAt0_B m c t h0]
  constructor
  · refine (congrFun (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).1
      (outsAt0 m c (t.val - 1) (Nat.lt_of_le_of_lt (Nat.sub_le _ _) t.isLt)).2) j).trans ?_
    refine (Point.addSum_apply (iblk m c 0 t) (iblk m c 1 t) (iblk m c 2 t) (iblk m c 3 t) (iblk m c 4 t) _ j).trans ?_
    unfold ptSum
    rw [dif_pos t.isLt]
  · refine (congrFun (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).1
      (outsAt0 m c (t.val - 1) (Nat.lt_of_le_of_lt (Nat.sub_le _ _) t.isLt)).2) j).trans ?_
    refine (Point.addAbs_apply (iblk m c 0 t) (iblk m c 1 t) (iblk m c 2 t) (iblk m c 3 t) (iblk m c 4 t) _ j).trans ?_
    unfold ptAbs
    rw [dif_pos t.isLt]

/-- After point `n` each accumulator holds the contributions of the points `32·(n / 32), …, n`. -/
theorem outsAt_eq (c : Dev nD) : ∀ (n : ℕ) (h : n < cfg0.N) (j : S1x1x1.Idx),
    (outsAt0 m c n h).1 j = ∑ p ∈ Finset.Icc (32 * (n / 32)) n, ptSum m c p
      ∧ (outsAt0 m c n h).2 j = ∑ p ∈ Finset.Icc (32 * (n / 32)) n, ptAbs m c p
  | 0, h, j => by
    have := firstPoint m c ⟨0, h⟩ rfl j
    simpa using this
  | n + 1, h, j => by
    by_cases h0 : (n + 1) % 32 = 0
    · have hs : 32 * ((n + 1) / 32) = n + 1 := by omega
      have := firstPoint m c ⟨n + 1, h⟩ h0 j
      rw [hs, Finset.Icc_self, Finset.sum_singleton, Finset.sum_singleton]
      exact this
    · have hs : 32 * ((n + 1) / 32) = 32 * (n / 32) := by omega
      have hle : 32 * (n / 32) ≤ n + 1 := by omega
      have ih := outsAt_eq c n (Nat.lt_of_succ_lt h) j
      have := laterPoint m c ⟨n + 1, h⟩ h0 j
      rw [hs, Finset.sum_Icc_succ_top hle, Finset.sum_Icc_succ_top hle, ← ih.1, ← ih.2]
      exact this

end Cert.KernelIdeal.Accum

end
-- ==== Proof.KernelArrays.lean ====
/-
  The two result arrays of the call after the run.

  Each of the two arrays has one word per half of the grid.  Half `a`'s word is written back once, after the last
  point of the half (point 32·a + 31), and then holds the contributions of all 32 points of the half.  The two
  write-backs cover the array, so the whole array is known.
-/
import proofs.«162774_j34875134444033_2_alg».proof.Proof.KernelAccum

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable (m : (ℓ : Loc nD τ sig) → Buf (Elt Ideal) ℓ)

/-- The first result array: word `a` is the sum of the block sums of the points of half `a`. -/
def halfSums (c : Dev nD) : S2x1x1.Idx → EReal :=
  fun i => ∑ p ∈ Finset.Icc (32 * (i 0).val) (32 * (i 0).val + 31), ptSum m c p

/-- The second result array: word `a` is the sum of the blocks' sums of absolute values over half `a`. -/
def halfAbs (c : Dev nD) : S2x1x1.Idx → EReal :=
  fun i => ∑ p ∈ Finset.Icc (32 * (i 0).val) (32 * (i 0).val + 31), ptAbs m c p

/-- Point `t` works on word `t / 32` of each result array. -/
theorem idx_facts : ∀ t : Fin cfg0.N,
    win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0 :=
  (by decide +kernel : ∀ t : Fin grid0.N, _)

/-- What the last point of a half writes back to the first array is that array's block there. -/
theorem flushed5_eq (c : Dev nD) (t : Fin cfg0.N) (hf : (cfg0.win 5).flush t = true) :
    (dats m 0 c).flushed 5 t = ((cfg0.win 5).blk t).view.read (Elt Ideal) (halfSums m c) := by
  have h31 : t.val % 32 = 31 := (flush0_5 t).mp hf
  show (cfg0.win 5).cut (grid0.coords t) ((dats m 0 c).after 5 t) = _
  rw [after0_5]
  funext y
  show (outsAt0 m c t.val t.isLt).1 y = halfSums m c (((cfg0.win 5).blk t).view.emb y)
  rw [(outsAt_eq m c t.val t.isLt y).1]
  unfold halfSums
  have e : ((((cfg0.win 5).blk t).view.emb y) 0).val = t.val / 32 := by
    show win0_5.index t (0 : Fin 3) * 1 + 1 * (y 0).val = _
    have hy : (y 0).val < 1 := (y 0).isLt
    rw [(idx_facts t).1]; omega
  rw [e]
  have e2 : 32 * (t.val / 32) + 31 = t.val := by omega
  rw [e2]

/-- The same for the second array. -/
theorem flushed6_eq (c : Dev nD) (t : Fin cfg0.N) (hf : (cfg0.win 6).flush t = true) :
    (dats m 0 c).flushed 6 t = ((cfg0.win 6).blk t).view.read (Elt Ideal) (halfAbs m c) := by
  have h31 : t.val % 32 = 31 := (flush0_6 t).mp hf
  show (cfg0.win 6).cut (grid0.coords t) ((dats m 0 c).after 6 t) = _
  rw [after0_6]
  funext y
  show (outsAt0 m c t.val t.isLt).2 y = halfAbs m c (((cfg0.win 6).blk t).view.emb y)
  rw [(outsAt_eq m c t.val t.isLt y).2]
  unfold halfAbs
  have e : ((((cfg0.win 6).blk t).view.emb y) 0).val = t.val / 32 := by
    show win0_6.index t (0 : Fin 3) * 1 + 1 * (y 0).val = _
    have hy : (y 0).val < 1 := (y 0).isLt
    rw [(idx_facts t).2.2.2.1]; omega
  rw [e]
  have e2 : 32 * (t.val / 32) + 31 = t.val := by omega
  rw [e2]

/-- The last point of half `a`. -/
def lastOf (i : S2x1x1.Idx) : Fin cfg0.N :=
  ⟨32 * (i 0).val + 31, by have h : (i 0).val < 2 := (i 0).isLt; rw [show cfg0.N = 64 from N_0]; omega⟩

/-- Word `i` of the first array lies in the block the last point of its half writes back. -/
theorem cover5 (i : S2x1x1.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hv : (lastOf i).val = 32 * (i 0).val + 31 := rfl
  refine ⟨lastOf i, (flush0_5 _).mpr (by rw [hv]; omega), ?_⟩
  show i ∈ ((View.whole main_v9_0).slice (win0_5.rect (lastOf i))).set
  rw [View.set_slice_whole, Rect.mem_set_unit]
  obtain ⟨e0, e1, e2, -⟩ := idx_facts (lastOf i)
  intro a
  match a with
  | ⟨0, _⟩ => show win0_5.index (lastOf i) (0 : Fin 3) * 1 ≤ (i 0).val ∧ (i 0).val < win0_5.index (lastOf i) (0 : Fin 3) * 1 + 1
              rw [e0, hv]; omega
  | ⟨1, _⟩ => show win0_5.index (lastOf i) (1 : Fin 3) * 1 ≤ (i 1).val ∧ (i 1).val < win0_5.index (lastOf i) (1 : Fin 3) * 1 + 1
              rw [e1]; omega
  | ⟨2, _⟩ => show win0_5.index (lastOf i) (2 : Fin 3) * 1 ≤ (i 2).val ∧ (i 2).val < win0_5.index (lastOf i) (2 : Fin 3) * 1 + 1
              rw [e2]; omega

/-- The same for the second array. -/
theorem cover6 (i : S2x1x1.Idx) : ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  have hv : (lastOf i).val = 32 * (i 0).val + 31 := rfl
  refine ⟨lastOf i, (flush0_6 _).mpr (by rw [hv]; omega), ?_⟩
  show i ∈ ((View.whole main_v9_1).slice (win0_6.rect (lastOf i))).set
  rw [View.set_slice_whole, Rect.mem_set_unit]
  obtain ⟨-, -, -, e0, e1, e2⟩ := idx_facts (lastOf i)
  intro a
  match a with
  | ⟨0, _⟩ => show win0_6.index (lastOf i) (0 : Fin 3) * 1 ≤ (i 0).val ∧ (i 0).val < win0_6.index (lastOf i) (0 : Fin 3) * 1 + 1
              rw [e0, hv]; omega
  | ⟨1, _⟩ => show win0_6.index (lastOf i) (1 : Fin 3) * 1 ≤ (i 1).val ∧ (i 1).val < win0_6.index (lastOf i) (1 : Fin 3) * 1 + 1
              rw [e1]; omega
  | ⟨2, _⟩ => show win0_6.index (lastOf i) (2 : Fin 3) * 1 ≤ (i 2).val ∧ (i 2).val < win0_6.index (lastOf i) (2 : Fin 3) * 1 + 1
              rw [e2]; omega

/-- The first result array after the run. -/
theorem final5 (c : Dev nD) : (dats m 0 c).arrAt 5 cfg0.N = halfSums m c :=
  (dats m 0 c).arrAt_eq_of_cover 5 (halfSums m c) (flushed5_eq m c) (cover5)

/-- The second result array after the run. -/
theorem final6 (c : Dev nD) : (dats m 0 c).arrAt 6 cfg0.N = halfAbs m c :=
  (dats m 0 c).arrAt_eq_of_cover 6 (halfAbs m c) (flushed6_eq m c) (cover6)

end Cert.KernelIdeal.Accum

end
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.RowAlgebra.lean ====
/-
  One row of the network, in the two arrangements.

  For a row `x` (20 features), the weight matrix `W`, the bias `b` and the fixed matrix `R`, entry `g` of
    h₃ = relu ((x Wᵀ + b) R + 1) Wᵀ + b
  is computed by the reference as written, and by the kernel from the folded affine map
    relu (x M + c) Wᵀ + b,   M = Wᵀ R,   c = b R + 1.
  Over the reals the two are equal: (x Wᵀ + b) R = x (Wᵀ R) + b R by distributivity and an exchange of the two sums.
  On the extended reals distributivity fails at infinities, so the statement is for inputs that are real numbers;
  both sides are then the image of one real number.
-/
import proofs.«162774_j34875134444033_2_alg».proof.Proof.LibRealImage
import Mathlib.Tactic.Ring

noncomputable section

open scoped BigOperators

namespace Cert.RowAlgebra

open Cert.Lib.RealImage

section Row

variable {n : ℕ}

/-- Entry `g` of h₃ for the row `x`, from the folded affine map (the kernel's arrangement). -/
def foldedRow (x : Fin n → EReal) (W R : Fin n → Fin n → EReal) (b : Fin n → EReal) (one zero : EReal) (g : Fin n) : EReal :=
  (∑ f, W g f * max ((∑ k, (∑ j, W j k * R j f) * x k) + ((∑ j, b j * R j f) + one)) zero) + b g

/-- Entry `g` of h₃ for the row `x`, layer by layer (the reference's arrangement). -/
def layeredRow (x : Fin n → EReal) (W R : Fin n → Fin n → EReal) (b : Fin n → EReal) (one zero : EReal) (g : Fin n) : EReal :=
  (∑ f, max ((∑ j, ((∑ k, x k * W j k) + b j) * R j f) + one) zero * W g f) + b g

/-- The same entry over the reals, folded. -/
def foldedRowR (x : Fin n → ℝ) (W R : Fin n → Fin n → ℝ) (b : Fin n → ℝ) (one zero : ℝ) (g : Fin n) : ℝ :=
  (∑ f, W g f * max ((∑ k, (∑ j, W j k * R j f) * x k) + ((∑ j, b j * R j f) + one)) zero) + b g

/-- The same entry over the reals, layer by layer. -/
def layeredRowR (x : Fin n → ℝ) (W R : Fin n → Fin n → ℝ) (b : Fin n → ℝ) (one zero : ℝ) (g : Fin n) : ℝ :=
  (∑ f, max ((∑ j, ((∑ k, x k * W j k) + b j) * R j f) + one) zero * W g f) + b g

/-- The pre-activations agree: `x (Wᵀ R) + (b R + 1) = (x Wᵀ + b) R + 1`. -/
theorem preact_eq (x : Fin n → ℝ) (W R : Fin n → Fin n → ℝ) (b : Fin n → ℝ) (one : ℝ) (f : Fin n) :
    (∑ k, (∑ j, W j k * R j f) * x k) + ((∑ j, b j * R j f) + one)
      = (∑ j, ((∑ k, x k * W j k) + b j) * R j f) + one := by
  have h1 : (∑ k, (∑ j, W j k * R j f) * x k) = ∑ j, (∑ k, x k * W j k) * R j f := by
    simp only [Finset.sum_mul]
    rw [Finset.sum_comm]
    exact Finset.sum_congr rfl fun j _ => Finset.sum_congr rfl fun k _ => by ring
  have h2 : (∑ j, ((∑ k, x k * W j k) + b j) * R j f) = (∑ j, (∑ k, x k * W j k) * R j f) + ∑ j, b j * R j f := by
    rw [← Finset.sum_add_distrib]
    exact Finset.sum_congr rfl fun j _ => by ring
  rw [h1, h2]; ring

/-- Over the reals the two arrangements are one number. -/
theorem foldedRowR_eq (x : Fin n → ℝ) (W R : Fin n → Fin n → ℝ) (b : Fin n → ℝ) (one zero : ℝ) (g : Fin n) :
    foldedRowR x W R b one zero g = layeredRowR x W R b one zero g := by
  unfold foldedRowR layeredRowR
  congr 1
  exact Finset.sum_congr rfl fun f _ => by rw [preact_eq, mul_comm]

theorem foldedRow_coe (x : Fin n → ℝ) (W R : Fin n → Fin n → ℝ) (b : Fin n → ℝ) (one zero : ℝ) (g : Fin n) :
    foldedRow (fun k => (x k : EReal)) (fun a c => (W a c : EReal)) (fun a c => (R a c : EReal)) (fun a => (b a : EReal)) one zero g
      = (foldedRowR x W R b one zero g : EReal) := by
  simp only [foldedRow, foldedRowR, coe_sum, EReal.coe_add, EReal.coe_mul, coe_max]

theorem layeredRow_coe (x : Fin n → ℝ) (W R : Fin n → Fin n → ℝ) (b : Fin n → ℝ) (one zero : ℝ) (g : Fin n) :
    layeredRow (fun k => (x k : EReal)) (fun a c => (W a c : EReal)) (fun a c => (R a c : EReal)) (fun a => (b a : EReal)) one zero g
      = (layeredRowR x W R b one zero g : EReal) := by
  simp only [layeredRow, layeredRowR, coe_sum, EReal.coe_add, EReal.coe_mul, coe_max]

/-- For real inputs the two arrangements agree on the extended reals. -/
theorem foldedRow_eq (x : Fin n → ℝ) (W R : Fin n → Fin n → ℝ) (b : Fin n → ℝ) (one zero : ℝ) (g : Fin n) :
    foldedRow (fun k => (x k : EReal)) (fun a c => (W a c : EReal)) (fun a c => (R a c : EReal)) (fun a => (b a : EReal)) one zero g
      = layeredRow (fun k => (x k : EReal)) (fun a c => (W a c : EReal)) (fun a c => (R a c : EReal)) (fun a => (b a : EReal)) one zero g := by
  rw [foldedRow_coe, layeredRow_coe, foldedRowR_eq]

end Row

end Cert.RowAlgebra

end
-- ==== Proof.KernelInputs.lean ====
/-
  The five blocks a grid point loads, in terms of the program's four arguments.

  Before the call the program folds the first two layers: Mᵀ = (Wᵀ R)ᵀ, the column c = (b R + 1)ᵀ, and b as a column.
  Entry (f, k) of Mᵀ is ∑ⱼ W(j,k) · R(j,f); entry f of c is ∑ⱼ b(j) · R(j,f) + 1.  The four small operands are
  fetched whole at every point; the block of x at point `t` is rows 16384·t … 16384·t + 16383.  With these, an
  entry of the block's h₃ᵀ is the folded form of one row of the network.
-/
import proofs.«162774_j34875134444033_2_alg».proof.Proof.KernelArrays
import proofs.«162774_j34875134444033_2_alg».proof.Proof.RowAlgebra
import Idealize.ShloMosaic.Lib.StableHlo.Run
import proofs.«162774_j34875134444033_2_alg».proof.Proof.LibPlainDot
import proofs.«162774_j34875134444033_2_alg».proof.Proof.LibKeepdims

noncomputable section

open Idealize.ShloMosaic Idealize.ShloMosaic.TcCoe Idealize.SL.Sem Idealize.ShloMosaic.ValueIdx
open Idealize.ShloMosaic.StableHlo

namespace Cert.KernelIdeal.Accum

open Cert.KernelIdeal Cert.KernelIdeal.Gen

variable (m : (ℓ : Loc nD τ sig) → Buf (Elt Ideal) ℓ)

/-- The argument arrays, as functions of coordinates. -/
def argX (c : Dev nD) : FVec Ideal S1048576x20 .f32 := m ((c : Thread nD τ).loc main_arg0)
def argW (c : Dev nD) : FVec Ideal S20x20 .f32 := m ((c : Thread nD τ).loc main_arg1)
def argB (c : Dev nD) : FVec Ideal S20 .f32 := m ((c : Thread nD τ).loc main_arg2)
def argR (c : Dev nD) : FVec Ideal S20x20 .f32 := m ((c : Thread nD τ).loc main_arg3)

/-- The folded matrix, transposed, as the call finds it. -/
theorem foldedT_eq (c : Dev nD) : (V m c main_v6 : FVec Ideal S20x20 .f32)
    = transpose S20x20 [1, 0] (Host.dotGeneral (F := Ideal) dot_S20x20_S20x20_S20x20_1_0_0_1_n_n (some .fp32)
        (transpose S20x20 [1, 0] (argW m c) transposes_S20x20_S20x20_1_0) (argR m c)) transposes_S20x20_S20x20_1_0 := by
  show StableHlo.after hostOps0 (fun b => m (c, b)) (Proc.devRef .tc main_v6) = _
  after_results
  rfl

/-- The folded bias column, as the call finds it. -/
theorem foldedBias_eq (c : Dev nD) : (V m c main_v7 : FVec Ideal S20x1 .f32)
    = shapeCast S20x1 (addf (Host.dotGeneral (F := Ideal) dot_S1x20_S20x20_S1x20_1_0_0_1_n_n (some .fp32)
        (shapeCast S1x20 (argB m c) shapeCasts_S20_S1x20) (argR m c))
        (broadcastInDim S1x20 ![] bcast_S_S1x20 (constant (F := Ideal) S_ .f32 0x3F800000#32))) shapeCasts_S1x20_S20x1 := by
  show StableHlo.after hostOps0 (fun b => m (c, b)) (Proc.devRef .tc main_v7) = _
  after_results
  rfl

/-- The bias as a column, as the call finds it. -/
theorem biasCol_eq (c : Dev nD) : (V m c main_v8 : FVec Ideal S20x1 .f32) = shapeCast S20x1 (argB m c) shapeCasts_S20_S20x1 := by
  show StableHlo.after hostOps0 (fun b => m (c, b)) (Proc.devRef .tc main_v8) = _
  after_results
  rfl

/-- The index maps of the five inputs: the block of x moves with the point, the four small operands stay. -/
theorem blk_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `l` of point `t`'s block is row 16384·t + l of x. -/
def rowOf (t : Fin cfg0.N) (l : Fin 16384) : Fin 1048576 :=
  ⟨16384 * t.val + l.val, by have h : t.val < 64 := lt_of_lt_of_eq t.isLt (show cfg0.N = 64 from N_0); have := l.isLt; omega⟩

theorem blkX (c : Dev nD) (t : Fin cfg0.N) (l : Fin 16384) (k : Fin 20) :
    (iblk m c 0 t : Vec Ideal S16384x20 .f32) (ix2 l k) = argX m c (ix2 (rowOf t l) k) := by
  unfold iblk
  rw [View.read_apply]
  show V m c main_arg0 (((cfg0.win 0).blk t).view.emb (ix2 l k)) = _
  rw [V_main_arg0]
  refine congrArg (m ((c : Thread nD τ).loc main_arg0)) ?_
  funext a; apply Fin.ext
  match a with
  | ⟨0, _⟩ => show win0_0.index t (0 : Fin 2) * 16384 + 1 * l.val = 16384 * t.val + l.val; rw [(blk_facts t).1]; omega
  | ⟨1, _⟩ => show win0_0.index t (1 : Fin 2) * 20 + 1 * k.val = k.val; rw [(blk_facts t).2.1]; omega

theorem blkM (c : Dev nD) (t : Fin cfg0.N) (f k : Fin 20) :
    (iblk m c 1 t : Vec Ideal S20x20 .f32) (ix2 f k) = (V m c main_v6 : FVec Ideal S20x20 .f32) (ix2 f k) := by
  unfold iblk
  rw [View.read_apply]
  show V m c main_v6 (((cfg0.win 1).blk t).view.emb (ix2 f k)) = _
  refine congrArg (V m c main_v6) ?_
  funext a; apply Fin.ext
  match a with
  | ⟨0, _⟩ => show win0_1.index t (0 : Fin 2) * 20 + 1 * f.val = f.val; rw [(blk_facts t).2.2.1]; omega
  | ⟨1, _⟩ => show win0_1.index t (1 : Fin 2) * 20 + 1 * k.val = k.val; rw [(blk_facts t).2.2.2.1]; omega

theorem blkC (c : Dev nD) (t : Fin cfg0.N) (f : Fin 20) (u : Fin 1) :
    (iblk m c 2 t : Vec Ideal S20x1 .f32) (ix2 f u) = (V m c main_v7 : FVec Ideal S20x1 .f32) (ix2 f u) := by
  unfold iblk
  rw [View.read_apply]
  show V m c main_v7 (((cfg0.win 2).blk t).view.emb (ix2 f u)) = _
  refine congrArg (V m c main_v7) ?_
  funext a; apply Fin.ext
  match a with
  | ⟨0, _⟩ => show win0_2.index t (0 : Fin 2) * 20 + 1 * f.val = f.val; rw [(blk_facts t).2.2.2.2.1]; omega
  | ⟨1, _⟩ => show win0_2.index t (1 : Fin 2) * 1 + 1 * u.val = u.val; rw [(blk_facts t).2.2.2.2.2.1]; omega

theorem blkW (c : Dev nD) (t : Fin cfg0.N) (g f : Fin 20) :
    (iblk m c 3 t : Vec Ideal S20x20 .f32) (ix2 g f) = argW m c (ix2 g f) := by
  unfold iblk
  rw [View.read_apply]
  show V m c main_arg1 (((cfg0.win 3).blk t).view.emb (ix2 g f)) = _
  rw [V_main_arg1]
  refine congrArg (m ((c : Thread nD τ).loc main_arg1)) ?_
  funext a; apply Fin.ext
  match a with
  | ⟨0, _⟩ => show win0_3.index t (0 : Fin 2) * 20 + 1 * g.val = g.val; rw [(blk_facts t).2.2.2.2.2.2.1]; omega
  | ⟨1, _⟩ => show win0_3.index t (1 : Fin 2) * 20 + 1 * f.val = f.val; rw [(blk_facts t).2.2.2.2.2.2.2.1]; omega

theorem blkB (c : Dev nD) (t : Fin cfg0.N) (g : Fin 20) (u : Fin 1) :
    (iblk m c 4 t : Vec Ideal S20x1 .f32) (ix2 g u) = (V m c main_v8 : FVec Ideal S20x1 .f32) (ix2 g u) := by
  unfold iblk
  rw [View.read_apply]
  show V m c main_v8 (((cfg0.win 4).blk t).view.emb (ix2 g u)) = _
  refine congrArg (V m c main_v8) ?_
  funext a; apply Fin.ext
  match a with
  | ⟨0, _⟩ => show win0_4.index t (0 : Fin 2) * 20 + 1 * g.val = g.val; rw [(blk_facts t).2.2.2.2.2.2.2.2.1]; omega
  | ⟨1, _⟩ => show win0_4.index t (1 : Fin 2) * 1 + 1 * u.val = u.val; rw [(blk_facts t).2.2.2.2.2.2.2.2.2]; omega

/-- Entry (f, k) of the folded matrix, transposed: ∑ⱼ W(j,k) · R(j,f). -/
theorem foldedT_apply (c : Dev nD) (f k : Fin 20) :
    (V m c main_v6 : FVec Ideal S20x20 .f32) (ix2 f k) = ∑ j : Fin 20, argW m c (ix2 j k) * argR m c (ix2 j f) := by
  rw [foldedT_eq]
  refine (transpose_ix2_apply _ _ f k).trans ?_
  refine (PlainDot.hostDot_apply _ rfl _ _ _ _).trans ?_
  refine Finset.sum_congr rfl fun j _ => congrArg₂ (· * ·) ?_ rfl
  exact transpose_ix2_apply _ _ k j

/-- Entry f of the folded bias: ∑ⱼ b(j) · R(j,f) + 1. -/
theorem foldedBias_apply (c : Dev nD) (f : Fin 20) :
    (V m c main_v7 : FVec Ideal S20x1 .f32) (ix2 f (0 : Fin 1))
      = (∑ j : Fin 20, argB m c (ix1 j) * argR m c (ix2 j f)) + Ideal.ofBits .f32 0x3F800000#32 := by
  rw [foldedBias_eq]
  refine (shapeCast_apply _ _ (ix2 f (0 : Fin 1)) (ix2 (0 : Fin 1) f) ?_).trans ?_
  · rw [Shape.rowMajor_val_two, Shape.rowMajor_val_two]
    show 0 * 20 + f.val = f.val * 1 + 0
    omega
  refine (addf_apply _ _ _).trans ?_
  refine congrArg₂ (· + ·) ?_ rfl
  refine (PlainDot.hostDot_apply _ rfl _ _ _ _).trans ?_
  refine Finset.sum_congr rfl fun j _ => congrArg₂ (· * ·) ?_ rfl
  refine (shapeCast_addUnit_apply ![20] _ _ _).trans (congrArg (argB m c) ?_)
  funext a
  match a with
  | ⟨0, _⟩ => rfl

/-- Entry g of the bias column. -/
theorem biasCol_apply (c : Dev nD) (g : Fin 20) :
    (V m c main_v8 : FVec Ideal S20x1 .f32) (ix2 g (0 : Fin 1)) = argB m c (ix1 g) := by
  rw [biasCol_eq]
  exact shapeCast_a_a1_apply _ _ g 0

/-- The folded matrix's block, at an entry. -/
theorem blkM_apply (c : Dev nD) (t : Fin cfg0.N) (f k : Fin 20) :
    (iblk m c 1 t : Vec Ideal S20x20 .f32) (ix2 f k) = ∑ j : Fin 20, argW m c (ix2 j k) * argR m c (ix2 j f) :=
  (blkM m c t f k).trans (foldedT_apply m c f k)

/-- The folded bias's block, at an entry. -/
theorem blkC_apply (c : Dev nD) (t : Fin cfg0.N) (f : Fin 20) :
    (iblk m c 2 t : Vec Ideal S20x1 .f32) (ix2 f (0 : Fin 1))
      = (∑ j : Fin 20, argB m c (ix1 j) * argR m c (ix2 j f)) + Ideal.ofBits .f32 0x3F800000#32 :=
  (blkC m c t f 0).trans (foldedBias_apply m c f)

/-- The bias column's block, at an entry. -/
theorem blkB_apply (c : Dev nD) (t : Fin cfg0.N) (g : Fin 20) :
    (iblk m c 4 t : Vec Ideal S20x1 .f32) (ix2 g (0 : Fin 1)) = argB m c (ix1 g) :=
  (blkB m c t g 0).trans (biasCol_apply m c g)

/-- An entry of the block's h₃ᵀ is the folded form of the corresponding row of the network. -/
theorem entry_eq (c : Dev nD) (t : Fin cfg0.N) (g : Fin 20) (l : Fin 16384) :
    Point.entry (iblk m c 0 t) (iblk m c 1 t) (iblk m c 2 t) (iblk m c 3 t) (iblk m c 4 t) g l
      = RowAlgebra.foldedRow (fun k => argX m c (ix2 (rowOf t l) k)) (fun a b => argW m c (ix2 a b)) (fun a b => argR m c (ix2 a b))
          (fun a => argB m c (ix1 a)) (Ideal.ofBits .f32 0x3F800000#32) (Ideal.ofBits .f32 0x00000000#32) g := by
  unfold Point.entry RowAlgebra.foldedRow
  simp only [blkX, blkM_apply, blkC_apply, blkW, blkB_apply]

end Cert.KernelIdeal.Accum

end
-- ==== Proof.Halving.lean ====
/-
  The power-of-two rescaling both programs end with.

  From the total `s = ∑ |h|` both programs compute an integer `k` — the ceiling of `log s / log 2` (of `max s 1`),
  corrected up by one when `s · 2^(-k) > 1` and down by one when `k > 0` and `s · 2^(-(k-1)) ≤ 1` — and the factor
  `2^(-k)`, spelled `exp (c · (-k))` with `c` the single-precision word nearest to `log 2`.  Here that chain is ONE
  function of `s`, so that the two programs meet at the same term of equal totals; the only fact about it used
  afterwards is that the factor is a real number: `k` is an integer, `c` is finite, and the exponential of a real
  is a real.
-/
import Idealize.ShloMosaic.PureOps.Ideal
import Idealize.ShloMosaic.PureOps.Ideal.Laws
import Idealize.ShloMosaic.Lib.ValueIdx

noncomputable section

namespace Cert.Halving

open Idealize.ShloMosaic

/-- The shape of a scalar. -/
abbrev Sc : Shape := ⟨0, ![]⟩

variable {F : FTy → Type} [FloatOps F]

/-- `2^(-k)` as the programs spell it: `exp (c · (-k))`, `c` the word `0x3F317218`. -/
def pow2neg (hb : Sc.BroadcastsInDim Sc (![] : Fin 0 → Fin Sc.rank)) (k : (⟨Sc, .i32⟩ : BufTy).Contents (Elt F)) :
    (⟨Sc, .f32⟩ : BufTy).Contents (Elt F) :=
  Host.exp (mulf (broadcastInDim Sc ![] hb (constant Sc .f32 0x3F317218#32)) (Host.negf (sitofp .f32 k)))

/-- The number of halvings `k` as a function of the total `s`. -/
def count (hb : Sc.BroadcastsInDim Sc (![] : Fin 0 → Fin Sc.rank)) (s : (⟨Sc, .f32⟩ : BufTy).Contents (Elt F)) :
    (⟨Sc, .i32⟩ : BufTy).Contents (Elt F) :=
  let k0 : (⟨Sc, .i32⟩ : BufTy).Contents (Elt F) :=
    fptosi 32 (Host.ceil (Host.divf (Host.log (maximumf s (constant Sc .f32 0x3F800000#32))) (Host.log (constant Sc .f32 0x40000000#32))))
  let k1 : (⟨Sc, .i32⟩ : BufTy).Contents (Elt F) :=
    select (cmpf .ogt (mulf s (pow2neg hb k0)) (constant Sc .f32 0x3F800000#32)) (addi k0 (constantI Sc 32 1#32)) k0
  select (andi (cmpi .sgt k1 (constantI Sc 32 0#32))
      (cmpf .ole (mulf s (pow2neg hb (subi k1 (constantI Sc 32 1#32)))) (constant Sc .f32 0x3F800000#32)))
    (subi k1 (constantI Sc 32 1#32)) k1

/-- The factor `2^(-k(s))`. -/
def scale (hb : Sc.BroadcastsInDim Sc (![] : Fin 0 → Fin Sc.rank)) (s : (⟨Sc, .f32⟩ : BufTy).Contents (Elt F)) :
    (⟨Sc, .f32⟩ : BufTy).Contents (Elt F) :=
  pow2neg hb (count hb s)

/-- The word `0x3F317218` denotes a real number. -/
theorem log2_word_real : ∃ r : ℝ, Ideal.ofBits .f32 0x3F317218#32 = (r : EReal) := by
  refine ⟨(11629080 : ℝ) * ((2 : ℝ) ^ 24)⁻¹, ?_⟩
  simp [Ideal.ofBits, Ideal.ieee]

/-- On the extended reals `2^(-k)` reads `exp (c · (-k))` of the integer `k`. -/
theorem pow2neg_apply (hb : Sc.BroadcastsInDim Sc (![] : Fin 0 → Fin Sc.rank)) (k : (⟨Sc, .i32⟩ : BufTy).Contents (Elt Ideal)) (i : Sc.Idx) :
    pow2neg (F := Ideal) hb k i = Ideal.exp (Ideal.ofBits .f32 0x3F317218#32 * -(((k i).toInt : ℝ) : EReal)) := rfl

/-- The factor is a real number, whatever the integer. -/
theorem pow2neg_real (hb : Sc.BroadcastsInDim Sc (![] : Fin 0 → Fin Sc.rank)) (k : (⟨Sc, .i32⟩ : BufTy).Contents (Elt Ideal)) (i : Sc.Idx) :
    ∃ e : ℝ, pow2neg (F := Ideal) hb k i = (e : EReal) := by
  obtain ⟨r, hr⟩ := log2_word_real
  refine ⟨Real.exp (r * -((k i).toInt : ℝ)), ?_⟩
  rw [pow2neg_apply, hr, ← EReal.coe_neg, ← EReal.coe_mul, Ideal.exp_coe]

/-- So the rescaling factor of any total is a real number. -/
theorem scale_real (hb : Sc.BroadcastsInDim Sc (![] : Fin 0 → Fin Sc.rank)) (s : (⟨Sc, .f32⟩ : BufTy).Contents (Elt Ideal)) (i : Sc.Idx) :
    ∃ e : ℝ, scale (F := Ideal) hb s i = (e : EReal) :=
  pow2neg_real hb _ i

end Cert.Halving

end
-- ==== Proof.KernelRun.lean ====
/-
  The program's result.

  After the call the program sums the two words of each result array, computes the rescaling factor from the total
  of absolute values, and multiplies the total by it.  The lines after the call are applied here to the two arrays
  the call leaves; the arguments end unchanged.
-/
import proofs.«162774_j34875134444033_2_alg».proof.Proof.KernelInputs
import proofs.«162774_j34875134444033_2_alg».proof.Proof.Halving

noncomputable section

open Idealize.ShloMosaic Idealize.ShloMosaic.TcCoe Idealize.SL.Sem
open Idealize.ShloMosaic.StableHlo

namespace Cert.KernelIdeal.Accum

open Cert.KernelIdeal Cert.KernelIdeal.Gen

set_option maxRecDepth 8192 in
set_option maxHeartbeats 4000000 in
/-- The lines after the call, over any buffer contents: the result is the first array's total times the factor
    computed from the second array's total. -/
theorem tail_after {F : FTy → Type} [FloatOps F] (Vl : Valuation τ sig (Elt F)) :
    StableHlo.after (List.flatten [hostOps1, hostOps1_1, hostOps1_2, hostOps1_3, hostOps1_4]) Vl (Proc.devRef .tc main_v44)
      = mulf (Host.reduceAdd (Vl (Proc.devRef .tc main_v9_0)) (constant S_ .f32 0x00000000#32) reducesTo_S2x1x1_S_d0_1_2 h_S_)
          (Halving.scale bcast_S_S_ (Host.reduceAdd (Vl (Proc.devRef .tc main_v9_1)) (constant S_ .f32 0x00000000#32) reducesTo_S2x1x1_S_d0_1_2 h_S_)) := by
  simp only [hostOps1, hostOps1_1, hostOps1_2, hostOps1_3, hostOps1_4, List.flatten_cons, List.flatten_nil, List.append_nil, List.cons_append, List.nil_append]
  after_results_simp
  rfl

variable (m : (ℓ : Loc nD τ sig) → Buf (Elt Ideal) ℓ) (ρ : Dev nD → PrngReg)

/-- The program's result on core `c`. -/
def result (c : Dev nD) : Buf (Elt Ideal) ((c.tc : Thread nD τ).loc main_v44) :=
  mulf (Host.reduceAdd (F := Ideal) (halfSums m c) (constant S_ .f32 0x00000000#32) reducesTo_S2x1x1_S_d0_1_2 h_S_)
    (Halving.scale (F := Ideal) bcast_S_S_ (Host.reduceAdd (F := Ideal) (halfAbs m c) (constant S_ .f32 0x00000000#32) reducesTo_S2x1x1_S_d0_1_2 h_S_))

/-- The lines after the call, applied to what the call leaves. -/
theorem tail_eq (c : Dev nD) :
    Pipeline.afterTail₀ cfgs (dats m) 0 (V0 m) [hostOps1, hostOps1_1, hostOps1_2, hostOps1_3, hostOps1_4] c main_v44 = result m c := by
  unfold Pipeline.afterTail₀
  refine (tail_after _).trans ?_
  have e5 : Pipeline.withArrays (cfgs 0).spec c (V0 m c) (fun w => (dats m 0 c).arrAt w (cfgs 0).N) (Proc.devRef .tc main_v9_0) = halfSums m c :=
    (Pipeline.withArrays_arr spec0 launch0.win.arr_inj c _ _ 5).trans (final5 m c)
  have e6 : Pipeline.withArrays (cfgs 0).spec c (V0 m c) (fun w => (dats m 0 c).arrAt w (cfgs 0).N) (Proc.devRef .tc main_v9_1) = halfAbs m c :=
    (Pipeline.withArrays_arr spec0 launch0.win.arr_inj c _ _ 6).trans (final6 m c)
  rw [e5, e6]
  rfl

/-- Every weakly fair execution ends with the result above and the four arguments unchanged. -/
theorem run : θ_run defs (onTc (τ := τ) (main (F := Ideal))) ⟨m, fun _ => 0, ρ⟩ fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v44 (Pipeline.mem_restRefs_of main_v44 (by decide) (by decide))).trans (tail_eq m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Accum

end
-- ==== Proof.Reference.lean ====
/-
  The reference, read entry by entry.

  Entry (n, g) of the reference's h₃ is the layered form of row n of the network.  Its total of absolute values
  feeds the same chain of operations as the kernel's program (the shared rescaling function), and its result is the
  sum over all entries of the entry times that factor.
-/
import proofs.«162774_j34875134444033_2_alg».proof.Proof.Gen.ReferenceIdeal.Read
import proofs.«162774_j34875134444033_2_alg».proof.Proof.RowAlgebra
import proofs.«162774_j34875134444033_2_alg».proof.Proof.Halving
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- Entry (n, g) of h₃, layer by layer. -/
theorem h3_apply (x0 : FVec Ideal S1048576x20 .f32) (x1 : FVec Ideal S20x20 .f32) (x2 : FVec Ideal S20 .f32) (x3 : FVec Ideal S20x20 .f32) (n : Fin 1048576) (g : Fin 20) :
    val_main_v13 (F := Ideal) x0 x1 x2 x3 (ix2 n g)
      = RowAlgebra.layeredRow (fun k => x0 (ix2 n k)) (fun a b => x1 (ix2 a b)) (fun a b => x3 (ix2 a b)) (fun a => x2 (ix1 a))
          (Ideal.ofBits .f32 0x3F800000#32) (Ideal.ofBits .f32 0x00000000#32) g := by
  have e10l : ∀ f : Fin 20, lidx_main_v10 (ix2 n g) f = ix2 n f := fun f => funext fun a => Fin.ext (by match a with | ⟨0, _⟩ => rfl | ⟨1, _⟩ => rfl)
  have e10r : ∀ f : Fin 20, ridx_main_v10 (ix2 n g) f = ix2 f g := fun f => funext fun a => Fin.ext (by match a with | ⟨0, _⟩ => rfl | ⟨1, _⟩ => rfl)
  have e9 : ∀ f : Fin 20, idx_main_v9 (ix2 f g) = ix2 g f := fun f => funext fun a => Fin.ext (by match a with | ⟨0, _⟩ => rfl | ⟨1, _⟩ => rfl)
  have e5l : ∀ f j : Fin 20, lidx_main_v5 (ix2 n f) j = ix2 n j := fun f j => funext fun a => Fin.ext (by match a with | ⟨0, _⟩ => rfl | ⟨1, _⟩ => rfl)
  have e5r : ∀ f j : Fin 20, ridx_main_v5 (ix2 n f) j = ix2 j f := fun f j => funext fun a => Fin.ext (by match a with | ⟨0, _⟩ => rfl | ⟨1, _⟩ => rfl)
  have e1l : ∀ j k : Fin 20, lidx_main_v1 (ix2 n j) k = ix2 n k := fun j k => funext fun a => Fin.ext (by match a with | ⟨0, _⟩ => rfl | ⟨1, _⟩ => rfl)
  have e1r : ∀ j k : Fin 20, ridx_main_v1 (ix2 n j) k = ix2 k j := fun j k => funext fun a => Fin.ext (by match a with | ⟨0, _⟩ => rfl | ⟨1, _⟩ => rfl)
  have e0 : ∀ j k : Fin 20, idx_main_v0 (ix2 k j) = ix2 j k := fun j k => funext fun a => Fin.ext (by match a with | ⟨0, _⟩ => rfl | ⟨1, _⟩ => rfl)
  have e3 : ∀ j : Fin 20, idx_main_v2 (idx_main_v3 (ix2 n j)) = ix1 j := fun j => funext fun a => Fin.ext (by match a with | ⟨0, _⟩ => rfl)
  have e12 : idx_main_v11 (idx_main_v12 (ix2 n g)) = ix1 g := funext fun a => Fin.ext (by match a with | ⟨0, _⟩ => rfl)
  unfold RowAlgebra.layeredRow
  simp only [val_main_v13_apply, val_main_v10_apply, val_main_v12_apply, val_main_v11_apply, val_main_v9_apply, val_main_v8_apply,
    val_main_v7_apply, val_main_v6_apply, val_main_cst_apply, val_main_call0_v0_apply, val_main_call0_cst_apply, val_main_v5_apply,
    val_main_v4_apply, val_main_v3_apply, val_main_v2_apply, val_main_v1_apply, val_main_v0_apply,
    e10l, e10r, e9, e5l, e5r, e1l, e1r, e0, e3, e12, Ideal.addf_def, Ideal.maximumf_def, Ideal.ofBits_def]

/-- The rescaling factor is the shared function of the total of absolute values. -/
theorem factor_eq (x0 : FVec Ideal S1048576x20 .f32) (x1 : FVec Ideal S20x20 .f32) (x2 : FVec Ideal S20 .f32) (x3 : FVec Ideal S20x20 .f32) :
    val_main_v47 (F := Ideal) x0 x1 x2 x3 = Halving.scale bcast_S_S_ (val_main_v15 (F := Ideal) x0 x1 x2 x3) := rfl

/-- The total of absolute values. -/
theorem absTotal_apply (x0 : FVec Ideal S1048576x20 .f32) (x1 : FVec Ideal S20x20 .f32) (x2 : FVec Ideal S20 .f32) (x3 : FVec Ideal S20x20 .f32) (i : S_.Idx) :
    val_main_v15 (F := Ideal) x0 x1 x2 x3 i
      = 0 + ∑ j : S1048576x20.Idx, max (val_main_v13 (F := Ideal) x0 x1 x2 x3 j) (-(val_main_v13 (F := Ideal) x0 x1 x2 x3 j)) := by
  rw [val_main_v15_apply, val_main_cst_0_apply, Ideal.ofBits_def, Ideal.ofBits_zero_f32]
  rfl

/-- The result: the sum over all entries of the entry times the factor. -/
theorem result_apply (x0 : FVec Ideal S1048576x20 .f32) (x1 : FVec Ideal S20x20 .f32) (x2 : FVec Ideal S20 .f32) (x3 : FVec Ideal S20x20 .f32) (i : S_.Idx) :
    val_main_v50 (F := Ideal) x0 x1 x2 x3 i
      = 0 + ∑ j : S1048576x20.Idx, val_main_v13 (F := Ideal) x0 x1 x2 x3 j
          * Halving.scale bcast_S_S_ (val_main_v15 (F := Ideal) x0 x1 x2 x3) ix0 := by
  rw [val_main_v50_apply, val_main_cst_11_apply, Ideal.ofBits_def, Ideal.ofBits_zero_f32]
  refine congrArg (0 + ·) (Finset.sum_congr rfl fun j _ => ?_)
  rw [val_main_v49_apply, val_main_v48_apply, factor_eq]
  rfl

end Cert.ReferenceIdeal.RefValue

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.GridSum.lean ====
/-
  The grid's bookkeeping, for any commutative sum.

  64 points in two halves of 32; each point contributes the sum of a chunk of 16384 consecutive terms of a sequence.
  The two halves' totals together are the sum of the first 64 · 16384 = 1048576 terms.
-/
import Mathlib.Algebra.BigOperators.Intervals
import Mathlib.Algebra.BigOperators.Fin
import Mathlib.Order.Interval.Finset.Nat
import proofs.«162774_j34875134444033_2_alg».proof.Proof.LibChunkedSum

namespace Cert.GridSum

open Finset Cert.Lib.ChunkedSum

variable {M : Type*} [AddCommMonoid M]

/-- The points of the two halves are the 64 points. -/
theorem sum_halves (pt : ℕ → M) :
    (∑ a : Fin 2, ∑ p ∈ Icc (32 * a.val) (32 * a.val + 31), pt p) = ∑ p ∈ range 64, pt p := by
  rw [Fin.sum_univ_two]
  have e1 : Icc (32 * (0 : Fin 2).val) (32 * (0 : Fin 2).val + 31) = Ico 0 32 := by
    ext p; simp only [mem_Icc, mem_Ico, Fin.val_zero]; omega
  have e2 : Icc (32 * (1 : Fin 2).val) (32 * (1 : Fin 2).val + 31) = Ico 32 64 := by
    ext p; simp only [mem_Icc, mem_Ico, Fin.val_one]; omega
  rw [e1, e2, Finset.sum_Ico_consecutive _ (by omega) (by omega), Finset.range_eq_Ico]

/-- When point `p` contributes chunk `p` of width 16384 of the sequence `F`, the halves' totals add up to the sum of
    the first 1048576 terms of `F`. -/
theorem grid_total (F pt : ℕ → M) (hpt : ∀ p < 64, pt p = chunk 16384 F p) :
    (∑ a : Fin 2, ∑ p ∈ Icc (32 * a.val) (32 * a.val + 31), pt p) = ∑ n ∈ range 1048576, F n := by
  rw [sum_halves, Finset.sum_congr rfl (fun p hp => hpt p (mem_range.mp hp)), sum_chunks_range]

end Cert.GridSum
-- ==== Proof.Bridge.lean ====
/-
  The two results are one number.

  Under the precondition the four arguments hold real numbers.  Then
  • an entry of a block's h₃ᵀ in the kernel (the folded form of a row) is the reference's entry of h₃ for that row
    (the layered form): one real number;
  • point `p` contributes the sum of the reference's entries over rows 16384·p … 16384·p + 16383, and the two halves'
    totals add up to the sum over all 1048576 rows — for the entries and for their absolute values alike, since
    addition of extended reals is commutative and associative;
  • so both programs compute the rescaling factor from the same total of absolute values: the same real number `e`;
  • and (∑ h) · e = ∑ (h · e), every entry `h` and `e` being real.
-/
import proofs.«162774_j34875134444033_2_alg».proof.Proof.KernelRun
import proofs.«162774_j34875134444033_2_alg».proof.Proof.Reference
import proofs.«162774_j34875134444033_2_alg».proof.Proof.GridSum

noncomputable section

open Idealize.ShloMosaic Idealize.ShloMosaic.TcCoe Idealize.SL.Sem Idealize.ShloMosaic.ValueIdx
open scoped BigOperators

namespace Cert.Bridge

open Cert.ReferenceIdeal.Read Cert.ReferenceIdeal.RefValue

/-- The word of 1.0 denotes the real number 1. -/
theorem one_word : Ideal.ofBits .f32 0x3F800000#32 = ((1 : ℝ) : EReal) := by
  rw [EReal.coe_one]; simp [Ideal.ofBits, Ideal.ieee, -EReal.coe_mul]; norm_num

/-- The word of 0.0 denotes the real number 0. -/
theorem zero_word : Ideal.ofBits .f32 0x00000000#32 = ((0 : ℝ) : EReal) := Ideal.ofBits_zero_f32

section Rows

variable (x0 : FVec Ideal Cert.ReferenceIdeal.S1048576x20 .f32) (x1 : FVec Ideal Cert.ReferenceIdeal.S20x20 .f32)
  (x2 : FVec Ideal Cert.ReferenceIdeal.S20 .f32) (x3 : FVec Ideal Cert.ReferenceIdeal.S20x20 .f32)

/-- All four arrays hold real numbers. -/
def AllReal : Prop :=
  (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal))

/-- The reference's h₃. -/
abbrev H : Cert.ReferenceIdeal.S1048576x20.Idx → EReal := val_main_v13 (F := Ideal) x0 x1 x2 x3

/-- For real arguments the folded form of a row is the reference's entry. -/
theorem folded_eq_H (hf : AllReal x0 x1 x2 x3) (n : Fin 1048576) (g : Fin 20) :
    RowAlgebra.foldedRow (fun k => x0 (ix2 n k)) (fun a b => x1 (ix2 a b)) (fun a b => x3 (ix2 a b)) (fun a => x2 (ix1 a))
        (Ideal.ofBits .f32 0x3F800000#32) (Ideal.ofBits .f32 0x00000000#32) g
      = H x0 x1 x2 x3 (ix2 n g) := by
  obtain ⟨h0, h1, h2, h3⟩ := hf
  choose r0 h0 using h0
  choose r1 h1 using h1
  choose r2 h2 using h2
  choose r3 h3 using h3
  obtain rfl : x0 = fun i => (r0 i : EReal) := funext h0
  obtain rfl : x1 = fun i => (r1 i : EReal) := funext h1
  obtain rfl : x2 = fun i => (r2 i : EReal) := funext h2
  obtain rfl : x3 = fun i => (r3 i : EReal) := funext h3
  rw [H, h3_apply, one_word, zero_word]
  exact RowAlgebra.foldedRow_eq (fun k => r0 (ix2 n k)) (fun a b => r1 (ix2 a b)) (fun a b => r3 (ix2 a b)) (fun a => r2 (ix1 a)) 1 0 g

/-- For real arguments every entry of h₃ is a real number. -/
theorem H_real (hf : AllReal x0 x1 x2 x3) (j : Cert.ReferenceIdeal.S1048576x20.Idx) : ∃ r : ℝ, H x0 x1 x2 x3 j = (r : EReal) := by
  obtain ⟨h0, h1, h2, h3⟩ := hf
  choose r0 h0 using h0
  choose r1 h1 using h1
  choose r2 h2 using h2
  choose r3 h3 using h3
  obtain rfl : x0 = fun i => (r0 i : EReal) := funext h0
  obtain rfl : x1 = fun i => (r1 i : EReal) := funext h1
  obtain rfl : x2 = fun i => (r2 i : EReal) := funext h2
  obtain rfl : x3 = fun i => (r3 i : EReal) := funext h3
  obtain ⟨n, g, rfl⟩ : ∃ (n : Fin 1048576) (g : Fin 20), j = ix2 n g := ⟨j 0, j 1, eq_ix2 j⟩
  rw [H, h3_apply, one_word, zero_word]
  exact ⟨_, RowAlgebra.layeredRow_coe (fun k => r0 (ix2 n k)) (fun a b => r1 (ix2 a b)) (fun a b => r3 (ix2 a b)) (fun a => r2 (ix1 a)) 1 0 g⟩

end Rows

section Sums

open Cert.KernelIdeal Cert.KernelIdeal.Gen Cert.KernelIdeal.Accum

variable (m : (ℓ : Loc nD τ sig) → Buf (Elt Ideal) ℓ) (c : Dev nD)

/-- The reference's h₃ of the kernel program's arguments. -/
abbrev HK : S1048576x20.Idx → EReal := H (argX m c) (argW m c) (argB m c) (argR m c)

/-- The sum of row `n` of h₃ (zero past the last row). -/
def rowSum (n : ℕ) : EReal := if h : n < 1048576 then ∑ g : Fin 20, HK m c (ix2 ⟨n, h⟩ g) else 0

/-- The sum of the absolute values of row `n` of h₃ (zero past the last row). -/
def rowAbs (n : ℕ) : EReal :=
  if h : n < 1048576 then ∑ g : Fin 20, max (HK m c (ix2 ⟨n, h⟩ g)) (-(HK m c (ix2 ⟨n, h⟩ g))) else 0

/-- An entry of a block's h₃ᵀ is the reference's entry for that row. -/
theorem entryH (hf : AllReal (argX m c) (argW m c) (argB m c) (argR m c)) (t : Fin cfg0.N) (g : Fin 20) (l : Fin 16384) :
    Point.entry (iblk m c 0 t) (iblk m c 1 t) (iblk m c 2 t) (iblk m c 3 t) (iblk m c 4 t) g l = HK m c (ix2 (rowOf t l) g) :=
  (entry_eq m c t g l).trans (folded_eq_H (argX m c) (argW m c) (argB m c) (argR m c) hf (rowOf t l) g)

/-- Point `p`'s block sum is the sum of the row sums of its 16384 rows. -/
theorem ptSum_eq (hf : AllReal (argX m c) (argW m c) (argB m c) (argR m c)) (p : ℕ) (hp : p < 64) :
    ptSum m c p = Cert.Lib.ChunkedSum.chunk 16384 (rowSum m c) p := by
  have hN : p < cfg0.N := lt_of_lt_of_eq hp (show (64 : ℕ) = cfg0.N from N_0.symm)
  unfold ptSum
  rw [dif_pos hN]
  unfold Point.blockSum Cert.Lib.ChunkedSum.chunk
  rw [Finset.sum_comm]
  refine Finset.sum_congr rfl fun l _ => ?_
  have hl : 16384 * p + l.val < 1048576 := by have := l.isLt; omega
  unfold rowSum
  rw [dif_pos hl]
  refine Finset.sum_congr rfl fun g _ => ?_
  exact entryH m c hf ⟨p, hN⟩ g l

/-- The same for the absolute values. -/
theorem ptAbs_eq (hf : AllReal (argX m c) (argW m c) (argB m c) (argR m c)) (p : ℕ) (hp : p < 64) :
    ptAbs m c p = Cert.Lib.ChunkedSum.chunk 16384 (rowAbs m c) p := by
  have hN : p < cfg0.N := lt_of_lt_of_eq hp (show (64 : ℕ) = cfg0.N from N_0.symm)
  unfold ptAbs
  rw [dif_pos hN]
  unfold Point.blockAbs Cert.Lib.ChunkedSum.chunk
  rw [Finset.sum_comm]
  refine Finset.sum_congr rfl fun l _ => ?_
  have hl : 16384 * p + l.val < 1048576 := by have := l.isLt; omega
  unfold rowAbs
  rw [dif_pos hl]
  refine Finset.sum_congr rfl fun g _ => ?_
  rw [entryH m c hf ⟨p, hN⟩ g l]
  rfl

/-- A sum over the two words of a result array is a sum over the two halves. -/
theorem sum_words (f : S2x1x1.Idx → EReal) : ∑ j, f j = ∑ a : Fin 2, f (ix3 a (0 : Fin 1) (0 : Fin 1)) :=
  Fintype.sum_equiv ⟨fun j => j 0, fun a => ix3 a (0 : Fin 1) (0 : Fin 1), fun j => funext fun d => Fin.ext (by
      have h1 : (j 1).val < 1 := (j 1).isLt
      have h2 : (j 2).val < 1 := (j 2).isLt
      match d with
      | ⟨0, _⟩ => rfl
      | ⟨1, _⟩ => show 0 = (j 1).val; omega
      | ⟨2, _⟩ => show 0 = (j 2).val; omega), fun _ => rfl⟩ _ _ fun j => congrArg f (funext fun d => Fin.ext (by
      have h1 : (j 1).val < 1 := (j 1).isLt
      have h2 : (j 2).val < 1 := (j 2).isLt
      match d with
      | ⟨0, _⟩ => rfl
      | ⟨1, _⟩ => show (j 1).val = 0; omega
      | ⟨2, _⟩ => show (j 2).val = 0; omega))

/-- The first result array's total is the sum of all entries of h₃. -/
theorem total_eq (hf : AllReal (argX m c) (argW m c) (argB m c) (argR m c)) :
    ∑ j, halfSums m c j = ∑ j, HK m c j := by
  rw [sum_words]
  show (∑ a : Fin 2, ∑ p ∈ Finset.Icc (32 * a.val) (32 * a.val + 31), ptSum m c p) = _
  rw [GridSum.grid_total (rowSum m c) (ptSum m c) (ptSum_eq m c hf), ← Fin.sum_univ_eq_sum_range, sum_idx2]
  refine Finset.sum_congr rfl fun n _ => ?_
  unfold rowSum
  rw [dif_pos n.isLt]

/-- The second result array's total is the sum of the absolute values of all entries of h₃. -/
theorem totalAbs_eq (hf : AllReal (argX m c) (argW m c) (argB m c) (argR m c)) :
    ∑ j, halfAbs m c j = ∑ j, max (HK m c j) (-(HK m c j)) := by
  rw [sum_words]
  show (∑ a : Fin 2, ∑ p ∈ Finset.Icc (32 * a.val) (32 * a.val + 31), ptAbs m c p) = _
  rw [GridSum.grid_total (rowAbs m c) (ptAbs m c) (ptAbs_eq m c hf), ← Fin.sum_univ_eq_sum_range, sum_idx2]
  refine Finset.sum_congr rfl fun n _ => ?_
  unfold rowAbs
  rw [dif_pos n.isLt]

/-- The host's sum of a two-word array from the zero word. -/
theorem reduce_total (A : FVec Ideal S2x1x1 .f32) (i : S_.Idx) :
    Host.reduceAdd (F := Ideal) A (constant S_ .f32 0x00000000#32) reducesTo_S2x1x1_S_d0_1_2 h_S_ i = 0 + ∑ j, A j := by
  simp only [Host.reduceAdd, Ideal.hostReduceAdd_def]
  refine (Ideal.hostReduceAdd_total reducesTo_S2x1x1_S_d0_1_2 (fun b => b.elim0) A _ i).trans ?_
  show Ideal.ofBits .f32 0x00000000#32 + _ = _
  rw [Ideal.ofBits_zero_f32]

/-- THE BRIDGE: for real arguments the kernel program's result is the reference's. -/
theorem result_eq (hf : AllReal (argX m c) (argW m c) (argB m c) (argR m c)) :
    result m c = val_main_v50 (F := Ideal) (argX m c) (argW m c) (argB m c) (argR m c) := by
  have hA : Host.reduceAdd (F := Ideal) (halfAbs m c) (constant S_ .f32 0x00000000#32) reducesTo_S2x1x1_S_d0_1_2 h_S_
      = val_main_v15 (F := Ideal) (argX m c) (argW m c) (argB m c) (argR m c) := by
    funext i'
    rw [absTotal_apply]
    exact (reduce_total (halfAbs m c) i').trans (congrArg (0 + ·) (totalAbs_eq m c hf))
  funext i
  obtain rfl : i = ix0 := eq_ix0 i
  unfold result
  rw [hA, result_apply]
  obtain ⟨e, he⟩ := Halving.scale_real Cert.ReferenceIdeal.Facts₀.bcast_S_S_ (val_main_v15 (F := Ideal) (argX m c) (argW m c) (argB m c) (argR m c)) ix0
  refine (mulf_apply _ _ _).trans ?_
  rw [reduce_total, total_eq m c hf]
  show (0 + ∑ j, HK m c j) * Halving.scale Cert.ReferenceIdeal.Facts₀.bcast_S_S_ (val_main_v15 (F := Ideal) (argX m c) (argW m c) (argB m c) (argR m c)) ix0 = _
  rw [he, zero_add, zero_add]
  choose hr hH using H_real (argX m c) (argW m c) (argB m c) (argR m c) hf
  have hfun : HK m c = fun j => (hr j : EReal) := funext hH
  show (∑ j, HK m c j) * (e : EReal) = ∑ j, HK m c j * (e : EReal)
  rw [hfun]
  exact Cert.Lib.RealImage.sum_mul_real Finset.univ hr e

end Sums

end Cert.Bridge

end
-- ==== Proof.lean ====
/-
  A three-layer perceptron with a fixed hidden matrix, summed and rescaled by a power of two:
    h₃ = relu ((x Wᵀ + b) R + 1) Wᵀ + b   over 1048576 rows of 20 features,
    s = ∑ |h₃|,   k = the least k ≥ 0 with s · 2^(-k) ≤ 1 (as the programs compute it),   result = ∑ (h₃ · 2^(-k)).
  The reference computes exactly this.  The kernel folds the first two layers into one affine map (M = Wᵀ R,
  c = b R + 1) before the call, works on transposed blocks of 16384 rows, accumulates ∑ h₃ and ∑ |h₃| per half of the
  grid, and rescales the total once: (∑ h₃) · 2^(-k).

  On the extended reals the two agree when the arguments are real numbers — the precondition:
  • (x Wᵀ + b) R + 1 = x (Wᵀ R) + (b R + 1): distributivity and an exchange of sums, over the reals (RowAlgebra);
  • the blocks' sums, accumulated point by point and half by half, add up to the sums over all rows: commutativity
    and associativity of addition only (KernelAccum, KernelArrays, GridSum, Bridge);
  • the factor 2^(-k) is the same function of the same total in both programs, and a real number (Halving);
  • (∑ h) · e = ∑ (h · e) for real h and e (LibRealImage).
  The three programs run, fault nowhere and leave their arguments unchanged: the kernel's two programs by their
  generated frame runs, the reference by its generated run.  The idealized kernel is the kernel's own text read on
  the extended reals: nothing was rewritten.
-/
import proofs.«162774_j34875134444033_2_alg».proof.Defs
import proofs.«162774_j34875134444033_2_alg».proof.Proof.Gen.Kernel
import proofs.«162774_j34875134444033_2_alg».proof.Proof.Gen.Kernel.Skeleton
import proofs.«162774_j34875134444033_2_alg».proof.Proof.Gen.Kernel.Launch
import proofs.«162774_j34875134444033_2_alg».proof.Proof.Gen.Kernel.Points
import proofs.«162774_j34875134444033_2_alg».proof.Proof.Gen.Kernel.Frame
import proofs.«162774_j34875134444033_2_alg».proof.Proof.Gen.KernelIdeal
import proofs.«162774_j34875134444033_2_alg».proof.Proof.Gen.KernelIdeal.Skeleton
import proofs.«162774_j34875134444033_2_alg».proof.Proof.Gen.KernelIdeal.Launch
import proofs.«162774_j34875134444033_2_alg».proof.Proof.Gen.KernelIdeal.Points
import proofs.«162774_j34875134444033_2_alg».proof.Proof.Gen.KernelIdeal.Frame
import proofs.«162774_j34875134444033_2_alg».proof.Proof.Gen.ReferenceIdeal
import proofs.«162774_j34875134444033_2_alg».proof.Proof.Gen.ReferenceIdeal.Run
import proofs.«162774_j34875134444033_2_alg».proof.Proof.Gen.ReferenceIdeal.Read
import proofs.«162774_j34875134444033_2_alg».proof.Proof.Gen.Pre_finite_inputs
import proofs.«162774_j34875134444033_2_alg».proof.Proof.Finite
import proofs.«162774_j34875134444033_2_alg».proof.Proof.Bridge
import Idealize.ShloMosaic.Adequacy
import Idealize.ShloMosaic.Init

noncomputable section

namespace Cert.Proof

open Idealize.ShloMosaic Idealize.SL.Sem

/-- The kernel's program, word for word: it runs and leaves its arguments unchanged. -/
theorem frame_kernel : Cert.frame_Kernel := fun m ρ _ => Cert.Kernel.Gen.frame m ρ

/-- The same program on the extended reals. -/
theorem frame_kernelIdeal : Cert.frame_KernelIdeal := fun m ρ _ => Cert.KernelIdeal.Gen.frame m ρ

/-- The reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On real arguments the kernel's program ends with the reference's result. -/
theorem algebraic : Cert.algebraic_KernelIdeal_ReferenceIdeal := by
  intro m ρ m' ρ' hpre hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]
  exact (Cert.Bridge.result_eq m c (Cert.Pre_finite_inputs.Finite.real_of_pre _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
